-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048x7x7 : Shape := ⟨4, ![256, 2048, 7, 7]⟩
abbrev S_ : Shape := ⟨0, ![]⟩

class Facts : Prop where
  bcast_S_S256x2048x7x7 : S_.BroadcastsInDim S256x2048x7x7 (![] : Fin 0 → Fin S256x2048x7x7.rank)
  reducesTo_S256x2048x7x7_S_d0_1_2_3 : S256x2048x7x7.ReducesTo [0, 1, 2, 3] S_
  h_S_ : 0 < S_.numel

variable [Facts]

def fn {F : FTy → Type} [FloatOps F] (main_arg0 : FVec F S256x2048x7x7 .f32) : IVec S_ 1 :=
  let main_v0 : FVec F S256x2048x7x7 .f32 := Host.absf main_arg0
  let main_cst : FVec F S_ .f32 := constant S_ .f32 0x7F800000#32
  let main_v1 : FVec F S256x2048x7x7 .f32 := broadcastInDim S256x2048x7x7 ![] bcast_S_S256x2048x7x7 main_cst
  let main_v2 : IVec S256x2048x7x7 1 := cmpf .olt main_v0 main_v1
  let main_c : IVec S_ 1 := constantI S_ 1 1#1
  let main_v3 : IVec S_ 1 := (fun x v => Host.reduce IntOp.andi x v reducesTo_S256x2048x7x7_S_d0_1_2_3 h_S_) main_v2 main_c
  main_v3
-- ==== Kernel.lean ====
abbrev S256x2048x7x7 : Shape := ⟨4, ![256, 2048, 7, 7]⟩
abbrev S7x7x256x2048 : Shape := ⟨4, ![7, 7, 256, 2048]⟩
abbrev S49x256x2048 : Shape := ⟨3, ![49, 256, 2048]⟩
abbrev S256x2048 : Shape := ⟨2, ![256, 2048]⟩
abbrev S49x32x2048 : Shape := ⟨3, ![49, 32, 2048]⟩
abbrev S32x2048 : Shape := ⟨2, ![32, 2048]⟩
abbrev S256x2048x1x1 : Shape := ⟨4, ![256, 2048, 1, 1]⟩

abbrev nBuf : Space → Nat
  | .hbm => 5
  | .vmem => 4
  | .smem => 0
  | _ => 0

abbrev bufTy : (tb : Table) → Fin (tcTables nBuf tb) → BufTy
  | .hbm, ⟨0, _⟩ => ⟨S256x2048x7x7, .f32⟩
  | .hbm, ⟨1, _⟩ => ⟨S7x7x256x2048, .f32⟩
  | .hbm, ⟨2, _⟩ => ⟨S49x256x2048, .f32⟩
  | .hbm, ⟨3, _⟩ => ⟨S256x2048, .f32⟩
  | .hbm, ⟨4, _⟩ => ⟨S256x2048x1x1, .f32⟩
  | .local _ .vmem, ⟨0, _⟩ => ⟨S49x32x2048, .f32⟩
  | .local _ .vmem, ⟨1, _⟩ => ⟨S49x32x2048, .f32⟩
  | .local _ .vmem, ⟨2, _⟩ => ⟨S32x2048, .f32⟩
  | .local _ .vmem, ⟨3, _⟩ => ⟨S32x2048, .f32⟩
  | _, _ => ⟨S256x2048x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S49x32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S256x2048x7x7_S7x7x256x2048_2_3_0_1 : S256x2048x7x7.Transposes [2, 3, 0, 1] S7x7x256x2048
  shapeCasts_S7x7x256x2048_S49x256x2048 : S7x7x256x2048.ShapeCasts S49x256x2048
  inb_S49x32x2048_S49x32x2048_0_0_0 : ∀ a, (![0, 0, 0] : Fin 3 → Nat) a + S49x32x2048.size a ≤ S49x32x2048.size a
  h_S49x32x2048 : 0 < S49x32x2048.numel
  shapeCasts_S49x32x2048_S49x32x2048 : S49x32x2048.ShapeCasts S49x32x2048
  reduces_S49x32x2048_S32x2048 : S49x32x2048.Reduces [0] S32x2048
  inb_S32x2048_S32x2048_0_0 : ∀ a, (![0, 0] : Fin 2 → Nat) a + S32x2048.size a ≤ S32x2048.size a
  h_S32x2048 : 0 < S32x2048.numel
  shapeCasts_S256x2048_S256x2048x1x1 : S256x2048.ShapeCasts S256x2048x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S49x32x2048.size a ≤ S49x256x2048.size a
  hwx0_0 : ∀ i : grid0.Coords, EltTy.bits .f32 = 32 ∨ (Rect.block (s := S49x256x2048) S49x32x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x2048.size a ≤ S256x2048.size a
  hwx0_1 : ∀ i : grid0.Coords, EltTy.bits .f32 = 32 ∨ (Rect.block (s := S256x2048) S32x2048.size (cc0_transform_1 i) (hinb0_1 i)).WholeWords (EltTy.packing .f32)

variable [Facts₀]

abbrev win0_0 : Pipeline.Window sig grid0 :=
  Pipeline.Window.ofSpec (Memref.whole main_v1) S49x32x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S32x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S256x2048x7x7 : Shape := ⟨4, ![256, 2048, 7, 7]⟩
abbrev S524288x49 : Shape := ⟨2, ![524288, 49]⟩
abbrev S1x524288 : Shape := ⟨2, ![1, 524288]⟩
abbrev S10624x49 : Shape := ⟨2, ![10624, 49]⟩
abbrev S1x10624 : Shape := ⟨2, ![1, 10624]⟩
abbrev S10624 : Shape := ⟨1, ![10624]⟩
abbrev S256x2048x1x1 : Shape := ⟨4, ![256, 2048, 1, 1]⟩

abbrev nBuf : Space → Nat
  | .hbm => 4
  | .vmem => 4
  | .smem => 0
  | _ => 0

abbrev bufTy : (tb : Table) → Fin (tcTables nBuf tb) → BufTy
  | .hbm, ⟨0, _⟩ => ⟨S256x2048x7x7, .f32⟩
  | .hbm, ⟨1, _⟩ => ⟨S524288x49, .f32⟩
  | .hbm, ⟨2, _⟩ => ⟨S1x524288, .f32⟩
  | .hbm, ⟨3, _⟩ => ⟨S256x2048x1x1, .f32⟩
  | .local _ .vmem, ⟨0, _⟩ => ⟨S10624x49, .f32⟩
  | .local _ .vmem, ⟨1, _⟩ => ⟨S10624x49, .f32⟩
  | .local _ .vmem, ⟨2, _⟩ => ⟨S1x10624, .f32⟩
  | .local _ .vmem, ⟨3, _⟩ => ⟨S1x10624, .f32⟩
  | _, _ => ⟨S256x2048x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S10624x49 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x10624 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S256x2048x7x7_S524288x49 : S256x2048x7x7.ShapeCasts S524288x49
  inb_S10624x49_S10624x49_0_0 : ∀ a, (![0, 0] : Fin 2 → Nat) a + S10624x49.size a ≤ S10624x49.size a
  h_S10624x49 : 0 < S10624x49.numel
  shapeCasts_S10624x49_S10624x49 : S10624x49.ShapeCasts S10624x49
  reduces_S10624x49_S10624 : S10624x49.Reduces [1] S10624
  shapeCasts_S10624_S1x10624 : S10624.ShapeCasts S1x10624
  inb_S1x10624_S1x10624_0_0 : ∀ a, (![0, 0] : Fin 2 → Nat) a + S1x10624.size a ≤ S1x10624.size a
  h_S1x10624 : 0 < S1x10624.numel
  shapeCasts_S1x524288_S256x2048x1x1 : S1x524288.ShapeCasts S256x2048x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S10624x49.size a < S524288x49.size a
  hwx0_0 : ∀ i : grid0.Coords, EltTy.bits .f32 = 32 ∨ (Rect.unit (s := S524288x49) (fun a => cc0_transform_0 i a * S10624x49.size a) (fun a => (Pipeline.Clip.of (cc0_transform_0 i a) (S10624x49.size a) (S524288x49.size a)).extent (S10624x49.size a)) fun a => Pipeline.Clip.inb (Pipeline.Clip.ok_of (hstart0_0 i a))).WholeWords (EltTy.packing .f32)
  hwxs0_0 : ∀ i : grid0.Coords, EltTy.bits .f32 = 32 ∨ (Rect.unit (s := S10624x49) (fun _ => 0) (fun a => (Pipeline.Clip.of (cc0_transform_0 i a) (S10624x49.size a) (S524288x49.size a)).extent (S10624x49.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1x10624.size a < S1x524288.size a
  hwx0_1 : ∀ i : grid0.Coords, EltTy.bits .f32 = 32 ∨ (Rect.unit (s := S1x524288) (fun a => cc0_transform_1 i a * S1x10624.size a) (fun a => (Pipeline.Clip.of (cc0_transform_1 i a) (S1x10624.size a) (S1x524288.size a)).extent (S1x10624.size a)) fun a => Pipeline.Clip.inb (Pipeline.Clip.ok_of (hstart0_1 i a))).WholeWords (EltTy.packing .f32)
  hwxs0_1 : ∀ i : grid0.Coords, EltTy.bits .f32 = 32 ∨ (Rect.unit (s := S1x10624) (fun _ => 0) (fun a => (Pipeline.Clip.of (cc0_transform_1 i a) (S1x10624.size a) (S1x524288.size a)).extent (S1x10624.size a)) fun a => (Nat.zero_add _).trans_le (Pipeline.Clip.extent_le (Pipeline.Clip.ok_of (hstart0_1 i a)))).WholeWords (EltTy.packing .f32)

variable [Facts₀]

abbrev win0_0 : Pipeline.Window sig grid0 :=
  Pipeline.Window.ofSpecClip (Memref.whole main_v0) S10624x49.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S1x10624.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== Proof.KernelPayload.lean ====
/-
  The kernel body's stored value, read at one element. The body loads a [49, 32, 2048] block (49 spatial
  positions of 32 batches by 2048 channels), adds the 49 slabs, and multiplies by the scale. At entry (p, q)
  of the stored [32, 2048] block that is the sum over the leading coordinate k of the block at (k, p, q),
  times the scale: the sum over one axis is the finite sum over that axis's coordinates, the same-shape
  cast is the identity, and the product and the broadcast read through at an index.
-/
import proofs.«139924_g2000302540332858_pallasbulk_528_4_alg».proof.Proof.Gen.KernelIdeal.Skeleton
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.KernelIdeal.Hand

open Cert.KernelIdeal Cert.KernelIdeal.Gen

/-- Entry (p, q) of what the body stores: the 49 slabs of the loaded block added at (p, q), times the scale. -/
theorem pay_apply (x0 : Vec Ideal S49x32x2048 .f32) (p : Fin 32) (q : Fin 2048) :
    k0_pay1 (F := Ideal) x0 (ix2 p q)
      = (∑ k : Fin 49, x0 (ix3 k p q)) * Ideal.ofBits .f32 0x3CA72F05#32 := by
  have hsum : multiReduction (F := Ideal) .add [0] S32x2048 (shapeCast S49x32x2048 x0 shapeCasts_S49x32x2048_S49x32x2048)
      0x00000000#32 reduces_S49x32x2048_S32x2048 (.inl rfl) rfl (ix2 p q) = ∑ k : Fin 49, x0 (ix3 k p q) := by
    refine (Ideal.multiReduction_add_single _ _ _ _ _ (ix2 p q)).trans ?_
    rw [shapeCast_self]
    show ∑ k : Fin 49, x0 (reduces_S49x32x2048_S32x2048.lift (ix2 p q) k) = _
    refine Finset.sum_congr rfl fun k _ => congrArg x0 (funext fun a => ?_)
    match a with
    | ⟨0, _⟩ => rfl
    | ⟨1, _⟩ => rfl
    | ⟨2, _⟩ => rfl
  exact congrArg (· * Ideal.ofBits .f32 0x3CA72F05#32) hsum

end Cert.KernelIdeal.Hand

end
-- ==== Proof.PoolSpec.lean ====
/-
  The specification both programs meet: global average pooling of a [256, 2048, 7, 7] array over its two
  spatial axes. Entry (b, c) of the result is the sum of the 49 spatial entries x[b, c, h, w], taken in the
  row-major order k = 7 h + w of the positions, times the scale both programs multiply by — the binary32
  value nearest 1/49, read as the exact real it denotes. No program is imported here: the statement is over
  literal shapes and the extended reals only.
-/
import Idealize.ShloMosaic.PureOps.Ideal
import Idealize.ShloMosaic.Lib.ValueIdx

noncomputable section

open Idealize.ShloMosaic Idealize.ShloMosaic.ValueIdx

namespace Cert.PoolSpec

/-- Spatial position `k` of 49, as the pair (k / 7, k % 7) of a 7 × 7 grid in row-major order, under batch
    `b` and channel `c`. -/
abbrev at4 (b : Fin 256) (c : Fin 2048) (k : Fin 49) : (⟨4, ![256, 2048, 7, 7]⟩ : Shape).Idx :=
  ix4 b c (⟨k.val / 7, by omega⟩ : Fin 7) (⟨k.val % 7, by omega⟩ : Fin 7)

/-- The pooled array: at (b, c, 0, 0), the sum over the 49 positions times the scale. -/
def pool (x : FVec Ideal ⟨4, ![256, 2048, 7, 7]⟩ .f32) : FVec Ideal ⟨4, ![256, 2048, 1, 1]⟩ .f32 :=
  fun i => (∑ k : Fin 49, x (at4 (i 0) (i 1) k)) * Ideal.ofBits .f32 0x3CA72F05#32

end Cert.PoolSpec

end
-- ==== Proof.KernelEntry.lean ====
/-
  The array the region finds in its input window. Before the region the program transposes the argument
  x : [256, 2048, 7, 7] to [7, 7, 256, 2048] (result axes 0..3 read source axes 2, 3, 0, 1) and reshapes
  that to [49, 256, 2048]. A reshape keeps row-major positions, and position (k, b, c) of the result is
  position (k / 7, k % 7, b, c) of the transposed array, which the transpose reads at (b, c, k / 7, k % 7)
  of x. So slab k of the window's array is the spatial position k = 7 h + w of x, for every batch b and
  channel c.
-/
import proofs.«139924_g2000302540332858_pallasbulk_528_4_alg».proof.Proof.Gen.KernelIdeal.Frame
import proofs.«139924_g2000302540332858_pallasbulk_528_4_alg».proof.Proof.PoolSpec
import Idealize.ShloMosaic.Lib.Pipeline.Value
import Idealize.ShloMosaic.Lib.ValueIdx
import Idealize.ShloMosaic.Lib.Tactic

noncomputable section

open Idealize.ShloMosaic Idealize.ShloMosaic.TcCoe Idealize.ShloMosaic.ValueIdx Idealize.ShloMosaic.Tactic Idealize.SL.Sem
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- The input window's array at region entry is the reshape of the transpose of the argument. -/
theorem entry_eq (c : Dev nD) :
    (V m c main_v1 : S49x256x2048.Idx → Elt Ideal .f32)
      = shapeCast S49x256x2048 (transpose S7x7x256x2048 [2, 3, 0, 1]
          (m ((c : Thread nD τ).loc main_arg0) : S256x2048x7x7.Idx → Elt Ideal .f32)
          Facts₀.transposes_S256x2048x7x7_S7x7x256x2048_2_3_0_1) Facts₀.shapeCasts_S7x7x256x2048_S49x256x2048 := by
  show StableHlo.after hostOps0 (fun b => m (c, b)) (Proc.devRef .tc main_v1) = _
  after_results
  rfl

/-- Read at (k, b, ch): the argument at batch b, channel ch, spatial position (k / 7, k % 7). -/
theorem entry_apply (c : Dev nD) (k : Fin 49) (b : Fin 256) (ch : Fin 2048) :
    (V m c main_v1 : S49x256x2048.Idx → Elt Ideal .f32) (ix3 k b ch)
      = (m ((c : Thread nD τ).loc main_arg0) : S256x2048x7x7.Idx → Elt Ideal .f32) (Cert.PoolSpec.at4 b ch k) := by
  rw [entry_eq]
  refine (shapeCast_apply _ _ (ix3 k b ch)
    (ix4 (⟨k.val / 7, by omega⟩ : Fin 7) (⟨k.val % 7, by omega⟩ : Fin 7) b ch) ?_).trans ?_
  · rw [Shape.rowMajor_val_four, Shape.rowMajor_val_three]
    show ((k.val / 7 * 7 + k.val % 7) * 256 + b.val) * 2048 + ch.val = (k.val * 256 + b.val) * 2048 + ch.val
    omega
  · refine transpose_apply _ _ _ _ (Cert.PoolSpec.at4 b ch k) fun a => ?_
    match a with
    | ⟨0, _⟩ => rfl
    | ⟨1, _⟩ => rfl
    | ⟨2, _⟩ => rfl
    | ⟨3, _⟩ => rfl

end Cert.KernelIdeal.Hand

end
-- ==== Proof.KernelBlocks.lean ====
/-
  From the blocks to the whole output array. Grid point t (of 8) reads block (0, t, 0) of the [49, 256, 2048]
  input array in blocks of [49, 32, 2048] — all 49 slabs of batches 32 t … 32 t + 31 — and writes block
  (t, 0) of the [256, 2048] output in blocks of [32, 2048]: the same 32 batches. An element of a block sits
  at block index × block size + its coordinate inside the block, on every axis. So entry (p, q) of what
  point t writes is the pooled value of batch 32 t + p and channel q, which is the whole-array function
  `pooled` below read through the block; batch r lies in the block of point r / 32, so the eight blocks
  cover the array and it ends holding `pooled` of the argument.
-/
import proofs.«139924_g2000302540332858_pallasbulk_528_4_alg».proof.Proof.KernelPayload
import proofs.«139924_g2000302540332858_pallasbulk_528_4_alg».proof.Proof.KernelEntry

noncomputable section

open Idealize.ShloMosaic Idealize.ShloMosaic.TcCoe Idealize.ShloMosaic.ValueIdx Idealize.ShloMosaic.Tactic Idealize.SL.Sem
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The output array as one function of the argument: at (b, ch) the 49 spatial entries of batch b and
    channel ch added in row-major order of the positions, times the scale. -/
abbrev pooled (x : S256x2048x7x7.Idx → Elt Ideal .f32) : S256x2048.Idx → Elt Ideal .f32 :=
  fun i => (∑ k : Fin 49, x (Cert.PoolSpec.at4 (i 0) (i 1) k)) * Ideal.ofBits .f32 0x3CA72F05#32

/-- The two index maps over the grid: the input's block index is (0, t, 0) and the output's is (t, 0). -/
theorem block_index : ∀ t : Fin cfg0.N, win0_0.index t (0 : Fin 3) = 0 ∧ win0_0.index t (1 : Fin 3) = t.val
    ∧ win0_0.index t (2 : Fin 3) = 0 ∧ win0_1.index t (0 : Fin 2) = t.val ∧ win0_1.index t (1 : Fin 2) = 0 :=
  (by decide +kernel : ∀ t : Fin grid0.N, _)

/-- The input block of point t at (k, p, q) is the argument at batch 32 t + p, channel q, spatial position k. -/
theorem in_block_apply (c : Dev nD) (t : Fin cfg0.N) (y : S49x32x2048.Idx) (k : Fin 49) (b : Fin 256) (ch : Fin 2048)
    (h0 : k.val = (y 0).val) (h1 : b.val = t.val * 32 + (y 1).val) (h2 : ch.val = (y 2).val) :
    (iblk m c 0 t : Vec Ideal S49x32x2048 .f32) y
      = (m ((c : Thread nD τ).loc main_arg0) : S256x2048x7x7.Idx → Elt Ideal .f32) (Cert.PoolSpec.at4 b ch k) := by
  obtain ⟨e0, e1, e2, -, -⟩ := block_index t
  unfold iblk
  rw [View.read_apply]
  show (V m c main_v1 : S49x256x2048.Idx → Elt Ideal .f32) _ = _
  rw [← entry_apply m c k b ch]
  refine congrArg (V m c main_v1 : S49x256x2048.Idx → Elt Ideal .f32) (funext fun a => Fin.ext ?_)
  match a with
  | ⟨0, _⟩ => show win0_0.index t (0 : Fin 3) * 49 + 1 * (y 0).val = k.val; omega
  | ⟨1, _⟩ => show win0_0.index t (1 : Fin 3) * 32 + 1 * (y 1).val = b.val; omega
  | ⟨2, _⟩ => show win0_0.index t (2 : Fin 3) * 2048 + 1 * (y 2).val = ch.val; omega

/-- What point t writes back is block t of `pooled` of the argument. -/
theorem flushed_eq (c : Dev nD) (t : Fin cfg0.N) :
    (dats m 0 c).flushed 1 t = ((cfg0.win 1).blk t).view.read (Elt Ideal)
      (pooled (m ((c : Thread nD τ).loc main_arg0))) := by
  show (cfg0.win 1).cut (grid0.coords t) ((dats m 0 c).after 1 t) = _
  rw [after0_1]
  unfold out0_1
  rw [View.canon_unit_zero zero2]
  simp only [View.ld_unit_zero (S := S49x32x2048) zero3]
  obtain ⟨-, -, -, e3, e4⟩ := block_index t
  funext j
  show k0_pay1 (F := Ideal) (iblk m c 0 t) j = pooled (m ((c : Thread nD τ).loc main_arg0)) (((cfg0.win 1).blk t).view.emb j)
  refine (congrArg (k0_pay1 (F := Ideal) (iblk m c 0 t)) (eq_ix2 (n0 := 32) (n1 := 2048) j)).trans ?_
  refine (pay_apply (iblk m c 0 t) (j 0) (j 1)).trans ?_
  refine congrArg (· * Ideal.ofBits .f32 0x3CA72F05#32) (Finset.sum_congr rfl fun k _ => ?_)
  refine in_block_apply m c t (ix3 k (j 0) (j 1)) k _ _ rfl ?_ ?_
  · show win0_1.index t (0 : Fin 2) * 32 + 1 * (j 0).val = t.val * 32 + (j 0).val; omega
  · show win0_1.index t (1 : Fin 2) * 2048 + 1 * (j 1).val = (j 1).val; omega

/-- An index of the output array is in point t's block iff each coordinate is in the block's range on its axis. -/
theorem mem_block (t : Fin cfg0.N) (i : S256x2048.Idx) :
    i ∈ ((cfg0.win 1).blk t).view.set ↔ ∀ a : Fin 2, win0_1.index t a * S32x2048.size a ≤ (i a).val
      ∧ (i a).val < win0_1.index t a * S32x2048.size a + S32x2048.size a := by
  show i ∈ ((View.whole main_v2).slice (win0_1.rect t)).set ↔ _
  rw [View.set_slice_whole, Rect.mem_set_unit]
  exact Iff.rfl

/-- Batch r is written by point r / 32: the eight blocks cover the output array. -/
theorem covered (i : S256x2048.Idx) :
    ∃ t : Fin cfg0.N, (cfg0.win 1).flush t = true ∧ i ∈ ((cfg0.win 1).blk t).view.set := by
  have hi0 : (i 0).val < 256 := (i 0).isLt
  have hi1 : (i 1).val < 2048 := (i 1).isLt
  have ht : (i 0).val / 32 < cfg0.N := by rw [show cfg0.N = 8 from N_0]; omega
  obtain ⟨-, -, -, e3, e4⟩ := block_index ⟨(i 0).val / 32, ht⟩
  refine ⟨⟨(i 0).val / 32, ht⟩, flush0_1 _, ?_⟩
  rw [mem_block]
  intro a
  match a with
  | ⟨0, _⟩ =>
    show win0_1.index ⟨(i 0).val / 32, ht⟩ (0 : Fin 2) * 32 ≤ (i 0).val
      ∧ (i 0).val < win0_1.index ⟨(i 0).val / 32, ht⟩ (0 : Fin 2) * 32 + 32
    rw [e3]; show (i 0).val / 32 * 32 ≤ (i 0).val ∧ (i 0).val < (i 0).val / 32 * 32 + 32; omega
  | ⟨1, _⟩ =>
    show win0_1.index ⟨(i 0).val / 32, ht⟩ (1 : Fin 2) * 2048 ≤ (i 1).val
      ∧ (i 1).val < win0_1.index ⟨(i 0).val / 32, ht⟩ (1 : Fin 2) * 2048 + 2048
    rw [e4]; omega

/-- The output array after the region: `pooled` of the argument. -/
theorem final (c : Dev nD) :
    (dats m 0 c).arrAt 1 cfg0.N = pooled (m ((c : Thread nD τ).loc main_arg0)) :=
  (dats m 0 c).arrAt_eq_of_cover 1 (pooled (m ((c : Thread nD τ).loc main_arg0)))
    (fun t _ => flushed_eq m c t) covered

end Cert.KernelIdeal.Hand

end
-- ==== Proof.KernelRun.lean ====
/-
  After the region the program reshapes the [256, 2048] output to [256, 2048, 1, 1]; a reshape keeps
  row-major positions, and position (b, ch, 0, 0) of the result is position (b, ch) of the output. So the
  result array ends holding, at (b, ch, 0, 0), the 49 spatial entries of batch b and channel ch of the
  argument added in row-major order, times the scale: the pooling specification. The argument array is
  neither an array the region writes nor the result of any host operation, so it ends as it began.
-/
import proofs.«139924_g2000302540332858_pallasbulk_528_4_alg».proof.Proof.KernelBlocks

noncomputable section

open Idealize.ShloMosaic Idealize.ShloMosaic.TcCoe Idealize.ShloMosaic.ValueIdx Idealize.ShloMosaic.Tactic Idealize.SL.Sem
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- The result buffer after the host operation that follows the region: the reshape of the region's output array. -/
theorem tail_eq (c : Dev nD) :
    (Pipeline.afterTail₀ cfgs (dats m) 0 (V0 m) [hostOps1] c main_v3 : S256x2048x1x1.Idx → Elt Ideal .f32)
      = shapeCast S256x2048x1x1 ((dats m 0 c).arrAt 1 cfg0.N : S256x2048.Idx → Elt Ideal .f32)
          Facts₀.shapeCasts_S256x2048_S256x2048x1x1 := by
  unfold Pipeline.afterTail₀
  show StableHlo.after hostOps1 _ (Proc.devRef .tc main_v3) = _
  after_results
  refine Eq.trans ?_ (congrArg
    (fun X : S256x2048.Idx → Elt Ideal .f32 => shapeCast S256x2048x1x1 X Facts₀.shapeCasts_S256x2048_S256x2048x1x1)
    (Pipeline.withArrays_arr spec0 launch0.win.arr_inj c (V0 m c) (fun w => (dats m 0 c).arrAt w cfg0.N) 1))
  rfl

/-- The reshape of `pooled x` to [256, 2048, 1, 1] is the pooling specification of x. -/
theorem pool_eq (x : S256x2048x7x7.Idx → Elt Ideal .f32) :
    shapeCast S256x2048x1x1 (pooled x) Facts₀.shapeCasts_S256x2048_S256x2048x1x1 = Cert.PoolSpec.pool x := by
  funext i
  refine (shapeCast_apply _ _ i (ix2 (n0 := 256) (n1 := 2048) (i 0) (i 1)) ?_).trans rfl
  rw [Shape.rowMajor_val_two, Shape.rowMajor_val_four]
  have h2 : (i 2).val < 1 := (i 2).isLt
  have h3 : (i 3).val < 1 := (i 3).isLt
  show (i 0).val * 2048 + (i 1).val = (((i 0).val * 2048 + (i 1).val) * 1 + (i 2).val) * 1 + (i 3).val
  omega

/-- So the result buffer ends at the pooling specification of the argument. -/
theorem result_eq (c : Dev nD) :
    Pipeline.afterTail₀ cfgs (dats m) 0 (V0 m) [hostOps1] c main_v3
      = Cert.PoolSpec.pool (m ((c.tc : Thread nD τ).loc main_arg0)) :=
  (tail_eq m c).trans ((congrArg
    (fun X : S256x2048.Idx → Elt Ideal .f32 => shapeCast S256x2048x1x1 X Facts₀.shapeCasts_S256x2048_S256x2048x1x1)
    (final m c)).trans (pool_eq _))

/-- The run, read: every weakly fair execution terminates with the result buffer at the pooling specification
    of the argument and the argument unchanged. -/
theorem run : θ_run (defs (F := Ideal)) (onTc (τ := τ) (main (F := Ideal))) ⟨m, fun _ => 0, ρ⟩ (fun r => ∀ c : Dev nD,
      r.2.mem ((c.tc : Thread nD τ).loc main_v3) = Cert.PoolSpec.pool (m ((c.tc : Thread nD τ).loc main_arg0))
      ∧ r.2.mem ((c.tc : Thread nD τ).loc main_arg0) = m ((c.tc : Thread nD τ).loc main_arg0)) :=
  (θ_run defs _ _).mono (fun r h c =>
    ⟨((h c).2 main_v3 (Pipeline.mem_restRefs_of main_v3 (by decide) (by decide))).trans (result_eq m c),
     ((h c).2 main_arg0 (Pipeline.mem_restRefs_of main_arg0 (by decide) (by decide))).trans (W_main_arg0 m (dats m) c)⟩)
    (Gen.run_main (F := Ideal) m ρ)

end Cert.KernelIdeal.Hand

end
-- ==== Proof.RefPayload.lean ====
/-
  The reference body's arithmetic, read at one entry. The body sums each row of its [10624, 49] input block
  over the 49 columns, scales the row sums, and lays them out as a [1, 10624] row. So entry (0, q) of what
  it stores is the sum of row q of the block times the scale, and depends on no other row.
-/
import proofs.«139924_g2000302540332858_pallasbulk_528_4_alg».proof.Proof.Gen.ReferenceIdeal.Skeleton
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.ReferenceIdeal.Hand

open Cert.ReferenceIdeal Cert.ReferenceIdeal.Gen

/-- Entry (0, q) of the stored row: the sum over the 49 columns of row q of the block, times the scale. -/
theorem pay_apply (X : FVec Ideal S10624x49 .f32) (z : Fin 1) (q : Fin 10624) :
    k0_pay1 (F := Ideal) X (ix2 z q) = (∑ k : Fin 49, X (ix2 q k)) * Ideal.ofBits .f32 0x3CA72F05#32 := by
  unfold k0_pay1
  dsimp only
  have hz : z.val = 0 := by omega
  refine (shapeCast_apply _ _ (ix2 z q) (ix1 q) ?_).trans ?_
  · rw [Shape.rowMajor_val_one, Shape.rowMajor_val_two]
    show q.val = z.val * 10624 + q.val
    omega
  · rw [mulf_apply, broadcast_apply]
    refine congrArg (· * _) ?_
    refine (Ideal.multiReduction_add_single _ _ reduces_S10624x49_S10624 _ _ (ix1 q)).trans ?_
    rw [shapeCast_self]
    refine Finset.sum_congr rfl fun k _ => congrArg X (funext fun a => Fin.ext ?_)
    match a with
    | ⟨0, _⟩ => rfl
    | ⟨1, _⟩ => rfl

end Cert.ReferenceIdeal.Hand

end
-- ==== Proof.RefBody.lean ====
/-
  The reference's pipeline, point by point. Its 524288 rows are fetched in 50 blocks of 10624 rows; the last
  block overhangs the array by 6912 rows, so only its first 3712 rows are fetched and only the first 3712
  entries of its result row are written back. What the staging buffers hold past the array's end is not
  determined and is never written back. The body stores, for every row of its block, that row's scaled sum;
  entry q of the stored row reads row q of the block and nothing else, so on the entries that are written back
  the stored row is the same whatever the undetermined rows hold. That is the body obligation proved here,
  and with it the run of the whole program and the frame.
-/
import proofs.«139924_g2000302540332858_pallasbulk_528_4_alg».proof.Proof.Gen.ReferenceIdeal.Frame
import proofs.«139924_g2000302540332858_pallasbulk_528_4_alg».proof.Proof.RefPayload
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.ReferenceIdeal.Hand

open Cert.ReferenceIdeal Cert.ReferenceIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The body's accesses and its triple -/

abbrev rIn : Rect S10624x49 := Rect.unit (s := S10624x49) ![0, 0] S10624x49.size inb_S10624x49_S10624x49_0_0
abbrev rOut : Rect S1x10624 := Rect.unit (s := S1x10624) ![0, 0] S1x10624.size inb_S1x10624_S1x10624_0_0

theorem hz2 : (![0, 0] : Fin 2 → Nat) = fun _ => 0 := funext fun a => by fin_cases a <;> rfl

/-- The one store covers the whole result buffer. -/
theorem coverOut (p0 : Vec Ideal S1x10624 .f32) (y : S1x10624.Idx) :
    ∃ pc ∈ ([⟨rOut, p0⟩] : List (View.Piece (Elt Ideal) S1x10624 .f32)), y ∈ pc.1.set :=
  View.cover_of_tiled [⟨rOut, p0⟩] S1x10624.size (by rfl) y

set_option maxHeartbeats 1000000 in
/-- The body on whole staging buffers: whatever block `x0` the input buffer holds, it is left in place and the
    result buffer ends holding the scaled row sums of `x0`. -/
theorem sound_kernel (c : Dev nD) (E : Set ℕ) (i : grid0.Coords) (arg1 : Memref sig .tc .vmem S10624x49 .f32) (harg1 : arg1.IsWhole)
    (arg2 : Memref sig .tc .vmem S1x10624 .f32) (harg2 : arg2.IsWhole)
    (x0 : Vec Ideal S10624x49 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 (F := Ideal) x0)) -∗ K ⟨⟩))
      ⊢ wp frame (wpE (defs₀ (F := Ideal)) Variants.none c none) E (cc0__avg_pool_kernel i arg1 harg1 arg2 harg2) K := by
  simp only [cc0__avg_pool_kernel_eq_skeleton]; unfold cc0__avg_pool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ (coverOut _)).trans ?_
  rw [View.canon_unit_zero hz2]
  simp only [View.readAt_eq_ld, harg1.read_unread, View.ld_unit_zero (S := S10624x49) hz2]

/-! ## The proof data -/

/-- The input block at point `t`: its rows inside the array as the fetch reads them, and zero rows past the
    array's end (a choice: nothing written back reads those rows). -/
def inblk (c : Dev nD) (t : Fin cfg0.N) : Vec Ideal S10624x49 .f32 :=
  win0_0.fill (grid0.coords t) (fun _ => (0 : EReal)) (iblk m c 0 t)

/-- The arrays as the region finds them; after the body at point `t` the input buffer at its block and the result
    buffer at the block's scaled row sums; the invariant the scoped rest and the generator register; nothing owed;
    full shares. -/
def dats (_ : Fin 1) (c : Dev nD) : Dat τ (Elt Ideal) Unit ℕ (UR sig nD τ) ℕ cfg0 c where
  A w := V m c (Pipeline.arrRef spec0 w)
  after w t := match w with
    | ⟨0, _⟩ => inblk m c t
    | ⟨1, _⟩ => k0_pay1 (F := Ideal) (inblk m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = inblk m c t := by dsimp only [dats]
theorem after_1 (c : Dev nD) (t : Fin cfg0.N) : (dats m 0 c).after 1 t = k0_pay1 (F := Ideal) (inblk m c t) := by
  dsimp only [dats]

/-- The input buffer when the body runs: just fetched, so the block on the rows inside the array and whatever
    `d` the buffer held on the others. -/
theorem before_0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk
  rw [A_eq]

/-- The result buffer when the body runs: written back at the point before (or never used), so anything. -/
theorem before_1 (c : Dev nD) (t : Fin cfg0.N) (d) : (dats m 0 c).before 1 t d = d :=
  (dats m 0 c).before_out_reset 1 rfl t (by
    by_cases h : t.val = 0
    · exact Or.inl h
    · exact Or.inr ⟨h, flush0_1 _⟩) d

/-! ## The rows past the array's end do not reach what is written back -/

/-- The entries of the stored row that are written back at grid coordinates `i` are the scaled sums of rows inside
    the array, so two input buffers that agree on the fetched rows give the same written-back entries. -/
theorem pay_cut_indep (i : grid0.Coords) (d d' : Vec Ideal S10624x49 .f32) (g : (win0_0.xblock i).Idx → EReal) :
    win0_1.cut i (k0_pay1 (F := Ideal) (win0_0.fill i d g)) = win0_1.cut i (k0_pay1 (F := Ideal) (win0_0.fill i d' g)) := by
  funext j
  have hq : (j 1).val < win0_0.xsize i 0 := (j 1).isLt
  have h1 : (j 1).val < 10624 := Nat.lt_of_lt_of_le (j 1).isLt (win0_1.xsize_le i 1)
  have h0 : (j 0).val < 1 := Nat.lt_of_lt_of_le (j 0).isLt (win0_1.xsize_le i 0)
  have e : win0_1.xinj i j = ix2 (⟨(j 0).val, h0⟩ : Fin 1) (⟨(j 1).val, h1⟩ : Fin 10624) :=
    funext fun a => by
      match a with
      | ⟨0, _⟩ => rfl
      | ⟨1, _⟩ => rfl
  show k0_pay1 (F := Ideal) _ (win0_1.xinj i j) = k0_pay1 (F := Ideal) _ (win0_1.xinj i j)
  rw [e, pay_apply, pay_apply]
  refine congrArg (· * _) (Finset.sum_congr rfl fun k _ => ?_)
  have hm : win0_0.moved i (ix2 (⟨(j 1).val, h1⟩ : Fin 10624) k) = true :=
    (win0_0.moved_iff i _).mpr fun a => by
      match a with
      | ⟨0, _⟩ => exact hq
      | ⟨1, _⟩ => exact (show k.val < 49 from k.isLt)
  unfold Window.fill
  rw [dif_pos hm, dif_pos hm]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns: each buffer stated on the part its transfers move only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ (∃ d, owns (c : Thread nD τ) (st0_1 t) fullShare
        (win0_1.fill (grid0.coords t) d (win0_1.cut (grid0.coords t) ((dats m 0 c).after 1 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after_0, after_1]
  iintro ⟨HΦ, Ho, ⟨%d0, H0⟩, ⟨%d1, H1⟩⟩
  rw [before_0 m c t d0, before_1 m c t d1]
  iapply (sound_kernel c Set.univ (grid0.coords t) _ _ _ _ (win0_0.fill (grid0.coords t) d0 (iblk m c 0 t)) _)
  isplitl [H0]; · iexact H0
  isplitl [H1]; · iexists _; iexact H1
  iintro ⟨H0, H1⟩
  isplitl [HΦ]; · iexact HΦ
  isplitl [Ho]; · iexact Ho
  isplitl [H0]
  · iexists d0
    unfold inblk
    rw [win0_0.cut_fill]
    iexact H0
  · iexists k0_pay1 (F := Ideal) (win0_0.fill (grid0.coords t) d0 (iblk m c 0 t))
    have e : win0_1.fill (grid0.coords t) (k0_pay1 (F := Ideal) (win0_0.fill (grid0.coords t) d0 (iblk m c 0 t)))
        (win0_1.cut (grid0.coords t) (k0_pay1 (F := Ideal) (inblk m c t)))
        = k0_pay1 (F := Ideal) (win0_0.fill (grid0.coords t) d0 (iblk m c 0 t)) :=
      win0_1.fill_congr_cut _ (pay_cut_indep (grid0.coords t) d0 (fun _ => (0 : EReal)) (iblk m c 0 t))
    rw [e]
    iexact H1

/-- The library's body obligation, at every point. -/
theorem body_obligation (c : Dev nD) :
    BodyObligationLoose (dats m 0 c) (defs₀ (F := Ideal)) Variants.none () Set.univ := fun t => by
  rw [bigSep_W0, bigSep_W0]
  exact sound_body m c t

/-! ## The run and the frame -/

set_option backward.isDefEq.respectTransparency.types false in
/-- Every weakly fair execution of the program terminates without a fault, the result array of the region holding
    what the write-backs leave and every other unscoped buffer what the lines after the region make of it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its argument ends unchanged. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.ReferenceIdeal.Hand

end
-- ==== Proof.RefValue.lean ====
/-
  What the reference computes, as one function of its argument. Row r = 2048 b + c of the [524288, 49] view of
  the argument holds the 49 spatial entries of (b, c) in row-major order, so the scaled row sums, written back
  block by block — block t covers rows 10624 t … , the last one only the 3712 rows inside the array — and
  re-laid as [256, 2048, 1, 1], are the pooled array.
-/
import proofs.«139924_g2000302540332858_pallasbulk_528_4_alg».proof.Proof.RefBody
import proofs.«139924_g2000302540332858_pallasbulk_528_4_alg».proof.Proof.PoolSpec
import Idealize.ShloMosaic.Lib.StableHlo.Run

set_option maxRecDepth 16384

noncomputable section

namespace Cert.ReferenceIdeal.Hand

open Cert.ReferenceIdeal Cert.ReferenceIdeal.Gen

open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The scaled row sums of a [524288, 49] array, laid out as a [1, 524288] row. -/
def rowMeans (x2 : FVec Ideal S524288x49 .f32) : FVec Ideal S1x524288 .f32 :=
  fun i => (∑ k : Fin 49, x2 (ix2 (⟨(i 1).val, (i 1).isLt⟩ : Fin 524288) k)) * Ideal.ofBits .f32 0x3CA72F05#32

/-! ## The windows' blocks over the grid -/

/-- Point `t` fetches block (t, 0) of the rows and writes back block (0, t) of the result row. -/
theorem idx_facts : ∀ t : Fin cfg0.N,
    win0_0.index t 0 = t.val ∧ win0_0.index t 1 = 0 ∧ win0_1.index t 0 = 0 ∧ win0_1.index t 1 = t.val :=
  (by decide +kernel : ∀ t : Fin grid0.N, _)

/-- The part of the result row's block at point `t` that is written back: its one row, and its columns up to the
    array's end. -/
theorem ext_facts : ∀ t : Fin cfg0.N,
    win0_1.xsize (grid0.coords t) 0 = 1 ∧ win0_1.xsize (grid0.coords t) 1 = min 10624 (524288 - t.val * 10624) :=
  (by decide +kernel : ∀ t : Fin grid0.N, _)

/-- An entry of the input block in a fetched row is moved by the fetch. -/
theorem moved_row (i : grid0.Coords) (q : Fin 10624) (k : Fin 49) (hq : q.val < win0_0.xsize i 0) :
    win0_0.moved i (ix2 q k) = true :=
  (win0_0.moved_iff i _).mpr fun a => by
    match a with
    | ⟨0, _⟩ => exact hq
    | ⟨1, _⟩ => exact (show k.val < 49 from k.isLt)

/-- Entry y of the input block at point `t` is the entry of the region's input array in row 10624 t + y₀ and
    column y₁. -/
theorem iblk_apply (c : Dev nD) (t : Fin cfg0.N) (y : (win0_0.xblock (grid0.coords t)).Idx) (r : Fin 524288) (k : Fin 49)
    (hr : r.val = 10624 * t.val + (y 0).val) (hk : k.val = (y 1).val) :
    iblk m c 0 t y = (V m c main_v0 : S524288x49.Idx → EReal) (ix2 r k) := by
  have hi := idx_facts t
  unfold iblk
  rw [View.read_apply]
  show (V m c main_v0 : S524288x49.Idx → EReal) _ = (V m c main_v0 : S524288x49.Idx → EReal) _
  refine congrArg (V m c main_v0 : S524288x49.Idx → EReal) (funext fun a => Fin.ext ?_)
  match a with
  | ⟨0, _⟩ => show win0_0.index t 0 * 10624 + 1 * (y 0).val = r.val; rw [hi.1, hr]; omega
  | ⟨1, _⟩ => show win0_0.index t 1 * 49 + 1 * (y 1).val = k.val; rw [hi.2.1, hk]; omega

/-! ## Every write-back writes its block of the row sums -/

theorem flushed_eq (c : Dev nD) (t : Fin cfg0.N) :
    (dats m 0 c).flushed 1 t = ((cfg0.win 1).blk t).view.read (Elt Ideal) (rowMeans (V m c main_v0)) := by
  funext j
  have hi := idx_facts t
  have h1 : (j 1).val < 10624 := Nat.lt_of_lt_of_le (j 1).isLt (win0_1.xsize_le (grid0.coords t) 1)
  have h0 : (j 0).val < 1 := Nat.lt_of_lt_of_le (j 0).isLt (win0_1.xsize_le (grid0.coords t) 0)
  have hq : (j 1).val < win0_0.xsize (grid0.coords t) 0 := (j 1).isLt
  have e : win0_1.xinj (grid0.coords t) j = ix2 (⟨(j 0).val, h0⟩ : Fin 1) (⟨(j 1).val, h1⟩ : Fin 10624) :=
    funext fun a => by
      match a with
      | ⟨0, _⟩ => rfl
      | ⟨1, _⟩ => rfl
  rw [View.read_apply]
  show (dats m 0 c).after 1 t (win0_1.xinj (grid0.coords t) j) = rowMeans (V m c main_v0) (((cfg0.win 1).blk t).view.emb j)
  rw [after_1, e, pay_apply]
  unfold rowMeans
  refine congrArg (· * _) (Finset.sum_congr rfl fun k _ => ?_)
  have hm := moved_row (grid0.coords t) (⟨(j 1).val, h1⟩ : Fin 10624) k hq
  unfold inblk Window.fill
  rw [dif_pos hm]
  refine iblk_apply m c t _ _ k ?_ rfl
  show win0_1.index t 1 * 10624 + 1 * (j 1).val = 10624 * t.val + (j 1).val
  rw [hi.2.2.2]; omega

/-! ## The blocks written back cover the row -/

theorem cover (i : S1x524288.Idx) :
    ∃ t : Fin cfg0.N, (cfg0.win 1).flush t = true ∧ i ∈ ((cfg0.win 1).blk t).view.set := by
  have hN : cfg0.N = 50 := N_0
  have hi1 : (i 1).val < 524288 := (i 1).isLt
  have hi0 : (i 0).val < 1 := (i 0).isLt
  have ht : (i 1).val / 10624 < cfg0.N := by rw [hN]; omega
  refine ⟨⟨(i 1).val / 10624, ht⟩, flush0_1 _, ?_⟩
  have hx := ext_facts ⟨(i 1).val / 10624, ht⟩
  have hix := idx_facts ⟨(i 1).val / 10624, ht⟩
  show i ∈ ((View.whole main_v1).slice (win0_1.rect ⟨(i 1).val / 10624, ht⟩)).set
  rw [View.set_slice_whole, Rect.mem_set_unit]
  intro a
  match a with
  | ⟨0, _⟩ =>
    show win0_1.index ⟨(i 1).val / 10624, ht⟩ 0 * 1 ≤ (i 0).val
      ∧ (i 0).val < win0_1.index ⟨(i 1).val / 10624, ht⟩ 0 * 1 + win0_1.xsize (grid0.coords ⟨(i 1).val / 10624, ht⟩) 0
    rw [hix.2.2.1, hx.1]; omega
  | ⟨1, _⟩ =>
    show win0_1.index ⟨(i 1).val / 10624, ht⟩ 1 * 10624 ≤ (i 1).val
      ∧ (i 1).val < win0_1.index ⟨(i 1).val / 10624, ht⟩ 1 * 10624 + win0_1.xsize (grid0.coords ⟨(i 1).val / 10624, ht⟩) 1
    rw [hix.2.2.2, hx.2]
    show (i 1).val / 10624 * 10624 ≤ (i 1).val ∧ (i 1).val < (i 1).val / 10624 * 10624 + min 10624 (524288 - (i 1).val / 10624 * 10624)
    omega

/-- So the result row ends holding the scaled row sums of the region's input array. -/
theorem final_v1 (c : Dev nD) : (dats m 0 c).arrAt 1 cfg0.N = rowMeans (V m c main_v0) :=
  (dats m 0 c).arrAt_eq_of_cover 1 (rowMeans (V m c main_v0)) (fun t _ => flushed_eq m c t) cover

/-! ## The host lines around the region -/

/-- The region's input array is the argument re-laid as [524288, 49]. -/
theorem V_v0 (c : Dev nD) : (V m c main_v0 : S524288x49.Idx → EReal)
    = shapeCast S524288x49 (m ((c : Thread nD τ).loc main_arg0)) shapeCasts_S256x2048x7x7_S524288x49 := by
  show StableHlo.after hostOps0 (fun b => m (c, b)) (Proc.devRef .tc main_v0) = _
  after_results
  rfl

/-- The program's result is the region's result row re-laid as [256, 2048, 1, 1]. -/
theorem tail_v2 (c : Dev nD) : Pipeline.afterTail₀ cfgs (dats m) 0 (V0 m) [hostOps1] c main_v2
    = shapeCast S256x2048x1x1 ((dats m 0 c).arrAt 1 cfg0.N) shapeCasts_S1x524288_S256x2048x1x1 := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.tc.devRef main_v1)
      = (dats m 0 c).arrAt 1 cfg0.N :=
    Pipeline.withArrays_arr spec0 launch0.win.arr_inj c _ _ 1
  rw [hw]
  rfl

/-! ## The two re-layings, at an index -/

/-- Row 2048 b + c of the [524288, 49] view holds the 49 spatial entries of (b, c) in row-major order, and entry
    (b, c, 0, 0) of the [256, 2048, 1, 1] view of a [1, 524288] row is its entry 2048 b + c: so the re-laid scaled
    row sums of the re-laid argument are the pooled array. -/
theorem pooled (x : FVec Ideal S256x2048x7x7 .f32) :
    shapeCast S256x2048x1x1 (rowMeans (shapeCast S524288x49 x shapeCasts_S256x2048x7x7_S524288x49))
      shapeCasts_S1x524288_S256x2048x1x1 = Cert.PoolSpec.pool x := by
  funext i
  obtain ⟨b, ch, z1, z2, rfl⟩ : ∃ (b : Fin 256) (ch : Fin 2048) (z1 z2 : Fin 1), i = ix4 b ch z1 z2 :=
    ⟨i 0, i 1, i 2, i 3, eq_ix4 i⟩
  have hb : b.val < 256 := b.isLt
  have hc : ch.val < 2048 := ch.isLt
  have hz1 : z1.val = 0 := by omega
  have hz2 : z2.val = 0 := by omega
  have hr : b.val * 2048 + ch.val < 524288 := by omega
  refine (shapeCast_apply _ _ (ix4 b ch z1 z2) (ix2 (0 : Fin 1) (⟨b.val * 2048 + ch.val, hr⟩ : Fin 524288)) ?_).trans ?_
  · rw [Shape.rowMajor_val_two, Shape.rowMajor_val_four]
    show (0 : Nat) * 524288 + (b.val * 2048 + ch.val) = ((b.val * 2048 + ch.val) * 1 + z1.val) * 1 + z2.val
    omega
  · unfold rowMeans Cert.PoolSpec.pool
    refine congrArg (· * _) (Finset.sum_congr rfl fun k _ => ?_)
    refine shapeCast_apply _ _ _ (Cert.PoolSpec.at4 b ch k) ?_
    rw [Shape.rowMajor_val_two, Shape.rowMajor_val_four]
    show ((b.val * 2048 + ch.val) * 7 + k.val / 7) * 7 + k.val % 7 = (b.val * 2048 + ch.val) * 49 + k.val
    omega

/-! ## The run, read -/

/-- The program's result on core `c`: the pooled argument. -/
theorem result (c : Dev nD) : Pipeline.afterTail₀ cfgs (dats m) 0 (V0 m) [hostOps1] c main_v2
    = Cert.PoolSpec.pool (m ((c : Thread nD τ).loc main_arg0)) := by
  rw [tail_v2, final_v1, V_v0]
  exact pooled _

/-- Every weakly fair execution of the reference terminates without a fault, its result the pooled argument and
    its argument unchanged. -/
theorem run : θ_run defs (onTc (τ := τ) (main (F := Ideal))) ⟨m, fun _ => 0, ρ⟩ (fun r => ∀ c : Dev nD,
      r.2.mem ((c.tc : Thread nD τ).loc main_v2) = Cert.PoolSpec.pool (m ((c.tc : Thread nD τ).loc main_arg0))
      ∧ r.2.mem ((c.tc : Thread nD τ).loc main_arg0) = m ((c.tc : Thread nD τ).loc main_arg0)) :=
  (θ_run defs _ _).mono
    (fun _ h c =>
      ⟨((h c).2 main_v2 (Pipeline.mem_restRefs_of main_v2 (by decide) (by decide))).trans (result m c),
        ((h c).2 main_arg0 (Pipeline.mem_restRefs_of main_arg0 (by decide) (by decide))).trans (W_main_arg0 m (dats m) c)⟩)
    (run_main m ρ)

end Cert.ReferenceIdeal.Hand

end
-- ==== Proof.lean ====
/-
  Global average pooling over the two spatial axes of a [256, 2048, 7, 7] array, computed two ways, and the two
  agree on the extended reals.

  The kernel moves the spatial axes to the front, views the array as 49 slabs of [256, 2048], and adds the slabs
  entry by entry in 8 blocks of 32 batch rows; the reference views the array as 524288 rows of 49 and sums each
  row, in 50 blocks of 10624 rows of which the last overhangs the array. Both then multiply by the same scale
  (the binary32 value nearest 1/49, read as the real it denotes) and view the result as [256, 2048, 1, 1]. Entry
  (b, c) of either is the sum over k < 49 of x[b, c, k / 7, k % 7] times the scale: the kernel's slab k at (b, c)
  and the reference's row 2048 b + c at column k are that same entry of x, so the two sums run over the same 49
  terms and no law of arithmetic beyond reading them off is needed; in particular finiteness of the input is not
  used. `Cert.PoolSpec.pool` is that function; each program's run is shown to end at it.

  The word-level kernel and its idealization are read through literal rectangles that tile their arrays, and
  their frames are the generated ones. The reference's last block is cut at the array's end: the rows of its
  staging buffer past the end hold undetermined words, the body sums them too, and the write-back drops the
  entries computed from them; its frame and its value are proved from that (RefBody, RefValue). No operation
  was rewritten by the idealization, so nothing is owed for it.
-/
import proofs.«139924_g2000302540332858_pallasbulk_528_4_alg».proof.Defs
import proofs.«139924_g2000302540332858_pallasbulk_528_4_alg».proof.Proof.Gen.Kernel
import proofs.«139924_g2000302540332858_pallasbulk_528_4_alg».proof.Proof.Gen.Kernel.Frame
import proofs.«139924_g2000302540332858_pallasbulk_528_4_alg».proof.Proof.Gen.KernelIdeal
import proofs.«139924_g2000302540332858_pallasbulk_528_4_alg».proof.Proof.Gen.KernelIdeal.Frame
import proofs.«139924_g2000302540332858_pallasbulk_528_4_alg».proof.Proof.Gen.ReferenceIdeal
import proofs.«139924_g2000302540332858_pallasbulk_528_4_alg».proof.Proof.Gen.Pre_finite_inputs
import proofs.«139924_g2000302540332858_pallasbulk_528_4_alg».proof.Proof.KernelRun
import proofs.«139924_g2000302540332858_pallasbulk_528_4_alg».proof.Proof.RefValue
import Idealize.ShloMosaic.Adequacy
import Idealize.ShloMosaic.Init

noncomputable section

namespace Cert.Proof

open Idealize.ShloMosaic Idealize.SL.Sem

/-- The word-level kernel runs and leaves its argument unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- And the reference, cut last block and all. -/
theorem frame_referenceIdeal : Cert.frame_ReferenceIdeal := fun m ρ _ => Cert.ReferenceIdeal.Hand.frame m ρ

/-- The idealization rewrote nothing. -/
theorem preserves : Cert.preserves_Kernel_KernelIdeal := trivial

/-- From memories that agree on the argument, both programs end at the pooled argument. -/
theorem algebraic : Cert.algebraic_KernelIdeal_ReferenceIdeal := by
  intro m ρ m' ρ' _ hagree
  refine ⟨fun c => Cert.PoolSpec.pool (m ((c.tc : Thread Cert.KernelIdeal.nD Cert.KernelIdeal.τ).loc Cert.KernelIdeal.main_arg0)),
    Cert.KernelIdeal.Hand.run m ρ, ?_⟩
  refine (θ_run Cert.ReferenceIdeal.defs _ _).mono (fun _ h c => ⟨(h c).1.trans ?_, (h c).2⟩)
    (Cert.ReferenceIdeal.Hand.run m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
